-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x2048 : Shape := ⟨2, ![32768, 2048]⟩
abbrev S2048x128 : Shape := ⟨2, ![2048, 128]⟩
abbrev S2048 : Shape := ⟨1, ![2048]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S2048x128 : S_.BroadcastsInDim S2048x128 (![] : Fin 0 → Fin S2048x128.rank)
  reducesTo_S2048x128_S_d0_1 : S2048x128.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S32768x128 .f32) (main_arg1 : FVec F S32768x2048 .f32) (main_arg2 : FVec F S2048x128 .f32) (main_arg3 : FVec F S2048 .f32) (main_arg4 : FVec F S2048 .f32) (main_arg5 : FVec F S2048 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S32768x128 : Shape := ⟨2, ![32768, 128]⟩
abbrev S32768x2048 : Shape := ⟨2, ![32768, 2048]⟩
abbrev S2048x128 : Shape := ⟨2, ![2048, 128]⟩
abbrev S2048 : Shape := ⟨1, ![2048]⟩
abbrev S128x2048 : Shape := ⟨2, ![128, 2048]⟩
abbrev S1x2048 : Shape := ⟨2, ![1, 2048]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 12
  | .vmem => 10
  | .smem => 0
  | _ => 0

abbrev bufTy : (tb : Table) → Fin (tcTables nBuf tb) → BufTy
  | .hbm, ⟨0, _⟩ => ⟨S32768x128, .f32⟩
  | .hbm, ⟨1, _⟩ => ⟨S32768x2048, .f32⟩
  | .hbm, ⟨2, _⟩ => ⟨S2048x128, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S128x2048, .f32⟩
  | .hbm, ⟨7, _⟩ => ⟨S128x2048, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S32768x2048, .f32⟩
  | .local _ .vmem, ⟨0, _⟩ => ⟨S1024x128, .f32⟩
  | .local _ .vmem, ⟨1, _⟩ => ⟨S1024x128, .f32⟩
  | .local _ .vmem, ⟨2, _⟩ => ⟨S1024x2048, .f32⟩
  | .local _ .vmem, ⟨3, _⟩ => ⟨S1024x2048, .f32⟩
  | .local _ .vmem, ⟨4, _⟩ => ⟨S128x2048, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S2048x128_S128x2048_1_0 : S2048x128.Transposes [1, 0] S128x2048
  bitsLt_bf16_f32 : FTy.bits .bf16 < FTy.bits .f32
  shapeCasts_S2048_S1x2048 : S2048.ShapeCasts S1x2048
  inb_S1024x128_S1024x128_0_0 : ∀ a, (![0, 0] : Fin 2 → Nat) a + S1024x128.size a ≤ S1024x128.size a
  h_S1024x128 : 0 < S1024x128.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  broadcasts_S1024x1_S1024x2048 : S1024x1.Broadcasts S1024x2048
  inb_S1024x2048_S1024x2048_0_0 : ∀ a, (![0, 0] : Fin 2 → Nat) a + S1024x2048.size a ≤ S1024x2048.size a
  h_S1024x2048 : 0 < S1024x2048.numel
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S32768x2048.size a
  hwx0_1 : ∀ i : grid0.Coords, EltTy.bits .f32 = 32 ∨ (Rect.block (s := S32768x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x2048.size a
  hwx0_2 : ∀ i : grid0.Coords, EltTy.bits .bf16 = 32 ∨ (Rect.block (s := S128x2048) S128x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S32768x2048.size a
  hwx0_6 : ∀ i : grid0.Coords, EltTy.bits .f32 = 32 ∨ (Rect.block (s := S32768x2048) S1024x2048.size (cc0_transform_6 i) (hinb0_6 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x2048 : Shape := ⟨2, ![32768, 2048]⟩
abbrev S2048x128 : Shape := ⟨2, ![2048, 128]⟩
abbrev S2048 : Shape := ⟨1, ![2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩

abbrev nBuf : Space → Nat
  | .hbm => 41
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x2048, .f32⟩
  | .hbm, ⟨2, _⟩ => ⟨S2048x128, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S1x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S1x2048, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S32768x2048, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  reducesTo_S32768x2048_S32768_d1 : S32768x2048.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x2048_0_1 : S32768x1.BroadcastsInDim S32768x2048 (![0, 1] : Fin 2 → Fin S32768x2048.rank)
  dot_S32768x128_S2048x128_S32768x2048_1_1_0_0_n_n_wf : DotDims.WF S32768x128 S2048x128 S32768x2048 [1] [1] [0] [0] [] []

variable [Facts₀]

def dot_S32768x128_S2048x128_S32768x2048_1_1_0_0_n_n : DotDims S32768x128 S2048x128 S32768x2048 where
  lhsContracting := [1]
  rhsContracting := [1]
  lhsNonContracting := [0]
  rhsNonContracting := [0]
  lhsBatch := []
  rhsBatch := []
  wf := dot_S32768x128_S2048x128_S32768x2048_1_1_0_0_n_n_wf

class Facts : Prop extends Facts₀ where

variable [Facts]
-- ==== Proof.RowNormLaw.lean ====
/-
  Row normalisation with its affine map folded into one scale and one shift.

  A row h of n = 2048 extended reals is normalised with
      mean = (sum h) / 2048,   var = (sum h*h) / 2048 - mean * mean,   s = 1 / sqrt (var + eps),
  and then mapped affinely by weights nw, nb and combined with a second row y.  Two spellings of the result:

      plain  : ((h - mean) * s * nw + nb + y) * y
      folded : (h * (s * nw) + (nb - mean * (s * nw)) + y) * y        (one scale s*nw, one shift nb - mean*s*nw)

  Over the reals they agree by distributivity.  On the extended reals distributivity fails at the infinities, so the
  agreement needs every quantity to be a real number: the entries are real by hypothesis, the sums of reals are real,
  and s is real because var + eps > 0 -- the variance of n numbers taken with divisor n is never negative
  (Cauchy-Schwarz: (sum h)^2 <= n * sum h^2), and eps is a positive number.

  The two literals are kept as the words the programs spell (2048.0 and the float nearest 1e-5) and evaluated once here.
-/
import Idealize.ShloMosaic.PureOps.Ideal
import Mathlib.Algebra.Order.Chebyshev

noncomputable section

namespace Cert.RowNorm

open Idealize.ShloMosaic
open scoped BigOperators

/-- A finite sum of reals, taken in the extended reals, is the real sum. -/
theorem coe_sum {ι : Type} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The word 0x45000000 is the real number 2048. -/
theorem word_2048 : Ideal.ofBits .f32 0x45000000#32 = ((2048 : ℝ) : EReal) := by
  simp [Ideal.ofBits, Ideal.ieee, -EReal.coe_mul]; norm_num

/-- The word 0x3727C5AC (the float nearest 1e-5) is a positive real number. -/
theorem word_eps : ∃ e : ℝ, 0 < e ∧ Ideal.ofBits .f32 0x3727C5AC#32 = (e : EReal) := by
  refine ⟨10995116 / 1099511627776, by norm_num, ?_⟩
  simp [Ideal.ofBits, Ideal.ieee, -EReal.coe_mul]; norm_num

variable {n : ℕ}

/-- The mean of a row: its sum over the literal 2048. -/
def mean (h : Fin n → EReal) : EReal := Ideal.div (∑ o, h o) (Ideal.ofBits .f32 0x45000000#32)

/-- The mean of a row's squares. -/
def meanSq (h : Fin n → EReal) : EReal := Ideal.div (∑ o, h o * h o) (Ideal.ofBits .f32 0x45000000#32)

/-- The reciprocal standard deviation of a row: 1 / sqrt (E[h^2] - E[h]^2 + eps). -/
def invStd (h : Fin n → EReal) : EReal :=
  Ideal.rsqrt (meanSq h - mean h * mean h + Ideal.ofBits .f32 0x3727C5AC#32)

/-- The affine map folded into one scale and one shift per entry. -/
def folded (h nw nb y : Fin n → EReal) (o : Fin n) : EReal :=
  (h o * (invStd h * nw o) + (nb o - mean h * (invStd h * nw o)) + y o) * y o

/-- Centre, scale, then map affinely. -/
def plain (h nw nb y : Fin n → EReal) (o : Fin n) : EReal :=
  ((h o - mean h) * invStd h * nw o + nb o + y o) * y o

theorem mean_coe (h : Fin n → ℝ) : mean (fun o => (h o : EReal)) = (((∑ o, h o) * (1 / 2048) : ℝ) : EReal) := by
  unfold mean
  rw [coe_sum, word_2048, Ideal.div_coe (by norm_num), ← EReal.coe_mul]

theorem meanSq_coe (h : Fin n → ℝ) :
    meanSq (fun o => (h o : EReal)) = (((∑ o, h o * h o) * (1 / 2048) : ℝ) : EReal) := by
  unfold meanSq
  simp only [← EReal.coe_mul]
  rw [coe_sum, word_2048, Ideal.div_coe (by norm_num), ← EReal.coe_mul]

/-- The variance of 2048 reals taken with divisor 2048 is not negative. -/
theorem variance_nonneg (h : Fin 2048 → ℝ) :
    0 ≤ (∑ o, h o * h o) * (1 / 2048) - (∑ o, h o) * (1 / 2048) * ((∑ o, h o) * (1 / 2048)) := by
  have cs : (∑ o, h o) ^ 2 ≤ (2048 : ℝ) * ∑ o, h o ^ 2 := by
    have := sq_sum_le_card_mul_sum_sq (s := (Finset.univ : Finset (Fin 2048))) (f := h)
    simpa using this
  have e2 : (∑ o, h o ^ 2) = ∑ o, h o * h o := Finset.sum_congr rfl fun o _ => sq (h o)
  rw [e2] at cs
  have e1 : (∑ o, h o) * (1 / 2048) * ((∑ o, h o) * (1 / 2048)) = (∑ o, h o) ^ 2 * (1 / 4194304) := by ring
  rw [e1]
  linarith

/-- So the reciprocal standard deviation of a row of reals is a real number. -/
theorem invStd_coe (h : Fin 2048 → ℝ) : ∃ s : ℝ, invStd (fun o => (h o : EReal)) = (s : EReal) := by
  obtain ⟨e, he, hw⟩ := word_eps
  have hv := variance_nonneg h
  unfold invStd
  rw [mean_coe, meanSq_coe, hw, ← EReal.coe_mul, ← EReal.coe_sub, ← EReal.coe_add, Ideal.rsqrt_coe,
    if_neg (not_lt.2 (by linarith)), if_neg (by linarith : ¬_ = (0 : ℝ))]
  exact ⟨_, rfl⟩

/-- On rows of reals the folded form is the plain one. -/
theorem folded_eq_plain (h nw nb y : Fin 2048 → EReal) (hh : ∀ o, ∃ r : ℝ, h o = r) (hnw : ∀ o, ∃ r : ℝ, nw o = r)
    (hnb : ∀ o, ∃ r : ℝ, nb o = r) (hy : ∀ o, ∃ r : ℝ, y o = r) (o : Fin 2048) :
    folded h nw nb y o = plain h nw nb y o := by
  choose g hg using hh
  obtain rfl : h = fun o => (g o : EReal) := funext hg
  obtain ⟨a, ha⟩ := hnw o
  obtain ⟨b, hb⟩ := hnb o
  obtain ⟨c, hc⟩ := hy o
  obtain ⟨s, hs⟩ := invStd_coe g
  unfold folded plain
  rw [mean_coe, hs, ha, hb, hc]
  simp only [← EReal.coe_mul, ← EReal.coe_add, ← EReal.coe_sub]
  congr 1
  ring

end Cert.RowNorm

end
-- ==== Proof.NormSpec.lean ====
/-
  The result array as one function of the six argument arrays, index by index, in the two spellings of RowNormLaw.

  x is 32768 x 128, the weight w is 2048 x 128, the bias and the two norm vectors have 2048 entries, y is 32768 x 2048.
  Row b of the linear layer is   lin b o = (sum over k < 128 of x[b,k] * w[o,k]) + bias[o],
  and entry (b, o) of the result is the normalised, affinely mapped row lin b at column o, combined with y[b,o]:
  it depends on row b of x, all of w and bias (through the row's mean and variance), nw[o], nb[o] and y[b,o].
  When all six arrays hold real numbers every row of the linear layer is real, so the two spellings agree.
-/
import proofs.«115211_j32607391711573_2_alg».proof.Proof.RowNormLaw
import Idealize.ShloMosaic.Lib.ValueIdx

noncomputable section

namespace Cert.RowNorm

open Idealize.ShloMosaic Idealize.ShloMosaic.ValueIdx
open scoped BigOperators

/-- Row b of the linear layer: x[b,:] against every row of w, plus the bias. -/
def linRow (x : (⟨2, ![32768, 128]⟩ : Shape).Idx → EReal) (w : (⟨2, ![2048, 128]⟩ : Shape).Idx → EReal)
    (bias : (⟨1, ![2048]⟩ : Shape).Idx → EReal) (b : Fin 32768) : Fin 2048 → EReal :=
  fun o => (∑ k : Fin 128, x (ix2 b k) * w (ix2 o k)) + bias (ix1 o)

/-- The result array, the affine map folded into a scale and a shift. -/
def outFolded (x : (⟨2, ![32768, 128]⟩ : Shape).Idx → EReal) (y : (⟨2, ![32768, 2048]⟩ : Shape).Idx → EReal)
    (w : (⟨2, ![2048, 128]⟩ : Shape).Idx → EReal) (bias nw nb : (⟨1, ![2048]⟩ : Shape).Idx → EReal) :
    (⟨2, ![32768, 2048]⟩ : Shape).Idx → EReal := fun i =>
  folded (linRow x w bias (i 0)) (fun o => nw (ix1 o)) (fun o => nb (ix1 o)) (fun o => y (ix2 (i 0) o)) (i 1)

/-- The result array, centred, scaled, then mapped affinely. -/
def outPlain (x : (⟨2, ![32768, 128]⟩ : Shape).Idx → EReal) (y : (⟨2, ![32768, 2048]⟩ : Shape).Idx → EReal)
    (w : (⟨2, ![2048, 128]⟩ : Shape).Idx → EReal) (bias nw nb : (⟨1, ![2048]⟩ : Shape).Idx → EReal) :
    (⟨2, ![32768, 2048]⟩ : Shape).Idx → EReal := fun i =>
  plain (linRow x w bias (i 0)) (fun o => nw (ix1 o)) (fun o => nb (ix1 o)) (fun o => y (ix2 (i 0) o)) (i 1)

/-- A row of the linear layer over real arrays is real: a finite sum of products of reals, plus a real. -/
theorem linRow_real {x : (⟨2, ![32768, 128]⟩ : Shape).Idx → EReal} {w : (⟨2, ![2048, 128]⟩ : Shape).Idx → EReal}
    {bias : (⟨1, ![2048]⟩ : Shape).Idx → EReal} (hx : ∀ i, ∃ r : ℝ, x i = r) (hw : ∀ i, ∃ r : ℝ, w i = r)
    (hb : ∀ i, ∃ r : ℝ, bias i = r) (b : Fin 32768) (o : Fin 2048) : ∃ r : ℝ, linRow x w bias b o = r := by
  choose xr hxr using hx
  choose wr hwr using hw
  obtain ⟨br, hbr⟩ := hb (ix1 o)
  refine ⟨(∑ k : Fin 128, xr (ix2 b k) * wr (ix2 o k)) + br, ?_⟩
  unfold linRow
  simp only [hxr, hwr, hbr, ← EReal.coe_mul]
  rw [coe_sum, ← EReal.coe_add]

/-- Over real arrays the two spellings of the result are one array. -/
theorem outFolded_eq_outPlain {x : (⟨2, ![32768, 128]⟩ : Shape).Idx → EReal}
    {y : (⟨2, ![32768, 2048]⟩ : Shape).Idx → EReal} {w : (⟨2, ![2048, 128]⟩ : Shape).Idx → EReal}
    {bias nw nb : (⟨1, ![2048]⟩ : Shape).Idx → EReal} (hx : ∀ i, ∃ r : ℝ, x i = r) (hy : ∀ i, ∃ r : ℝ, y i = r)
    (hw : ∀ i, ∃ r : ℝ, w i = r) (hb : ∀ i, ∃ r : ℝ, bias i = r) (hnw : ∀ i, ∃ r : ℝ, nw i = r)
    (hnb : ∀ i, ∃ r : ℝ, nb i = r) : outFolded x y w bias nw nb = outPlain x y w bias nw nb :=
  funext fun i => folded_eq_plain _ _ _ _ (linRow_real hx hw hb (i 0)) (fun o => hnw (ix1 o)) (fun o => hnb (ix1 o))
    (fun o => hy (ix2 (i 0) o)) (i 1)

end Cert.RowNorm

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.BlockValue.lean ====
/-
  What one grid step computes, entry by entry.

  A step holds 1024 rows: a 1024 x 128 block of x, the whole transposed weight (128 x 2048), the bias and the two norm
  vectors as 1 x 2048 rows, and a 1024 x 2048 block of y.  Its result at (p, q) depends on row p of the x block, the
  whole weight and bias (through the mean and the variance of row p of the linear layer), the norm weights at q and
  y at (p, q): it is the folded spelling of RowNormLaw applied to row p of the block's linear layer

      lin p o = (sum over k < 128 of xblk[p,k] * wT[k,o]) + bias[0,o].

  The stages are named here as the body spells them -- a row sum kept as a 1024 x 1 column, the column divided by the
  literal 2048, a column broadcast along its row, a 1 x 2048 row broadcast down the columns -- and each is read at an
  index.  A change of float format is the identity on extended reals, a matrix product into a zero accumulator is the
  plain sum of products, and a lane sum from the zero word is the plain sum.
-/
import proofs.«115211_j32607391711573_2_alg».proof.Proof.Gen.KernelIdeal.Skeleton
import proofs.«115211_j32607391711573_2_alg».proof.Proof.NormSpec
import proofs.«115211_j32607391711573_2_alg».proof.Proof.LibKeepdims
import proofs.«115211_j32607391711573_2_alg».proof.Proof.LibColumnCasts
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.RowNorm
open scoped BigOperators

/-! ## Rows and columns broadcast over the block -/

/-- A 1 x 2048 row laid under every one of the 1024 rows. -/
def rowOf (v : Vec Ideal S1x2048 .f32) : FVec Ideal S1024x2048 .f32 :=
  broadcastTo S1024x2048 (shapeCast S1x2048 v shapeCasts_S1x2048_S1x2048) broadcasts_S1x2048_S1024x2048

theorem rowOf_apply (v : Vec Ideal S1x2048 .f32) (p : Fin 1024) (q : Fin 2048) :
    rowOf v (ix2 p q) = v (ix2 (0 : Fin 1) q) := by
  unfold rowOf
  rw [shapeCast_self]
  exact broadcastTo_1b_ab_apply v broadcasts_S1x2048_S1024x2048 p q

/-- A 1024 x 1 column laid along every one of the 2048 columns. -/
def colOf (v : FVec Ideal S1024x1 .f32) : FVec Ideal S1024x2048 .f32 :=
  broadcastTo S1024x2048 v broadcasts_S1024x1_S1024x2048

theorem colOf_apply (v : FVec Ideal S1024x1 .f32) (p : Fin 1024) (q : Fin 2048) :
    colOf v (ix2 p q) = v (ix2 p (0 : Fin 1)) :=
  Cert.Keepdims.broadcastTo_a1_ab_apply v broadcasts_S1024x1_S1024x2048 p q

/-! ## A row's sum, mean, mean square and reciprocal deviation, kept as columns -/

/-- The sum of each row, kept as a column. -/
def rowSumCol (a : FVec Ideal S1024x2048 .f32) : FVec Ideal S1024x1 .f32 :=
  shapeCast S1024x1 (multiReduction .add [1] S1024 a 0x00000000#32 reduces_S1024x2048_S1024 (.inl rfl) rfl)
    shapeCasts_S1024_S1024x1

theorem rowSumCol_apply (a : FVec Ideal S1024x2048 .f32) (p : Fin 1024) :
    rowSumCol a (ix2 p (0 : Fin 1)) = ∑ o : Fin 2048, a (ix2 p o) := by
  unfold rowSumCol
  rw [Cert.ColumnCasts.shapeCast_a_a1_apply]
  exact Cert.ColumnCasts.rowSum_apply a reduces_S1024x2048_S1024 (.inl rfl) rfl p

/-- The mean of each row: the row sum over the literal 2048. -/
def meanCol (a : FVec Ideal S1024x2048 .f32) : FVec Ideal S1024x1 .f32 :=
  divf (rowSumCol a) (broadcast S1024x1 (Scalar.ofBits (F := Ideal) .f32 0x45000000#32))

theorem meanCol_apply (a : FVec Ideal S1024x2048 .f32) (p : Fin 1024) :
    meanCol a (ix2 p (0 : Fin 1)) = mean (fun o => a (ix2 p o)) := by
  show Ideal.div (rowSumCol a (ix2 p (0 : Fin 1))) (Ideal.ofBits .f32 0x45000000#32) = _
  rw [rowSumCol_apply]
  rfl

/-- The mean of each row's squares. -/
def meanSqCol (a : FVec Ideal S1024x2048 .f32) : FVec Ideal S1024x1 .f32 :=
  divf (rowSumCol (mulf a a)) (broadcast S1024x1 (Scalar.ofBits (F := Ideal) .f32 0x45000000#32))

theorem meanSqCol_apply (a : FVec Ideal S1024x2048 .f32) (p : Fin 1024) :
    meanSqCol a (ix2 p (0 : Fin 1)) = meanSq (fun o => a (ix2 p o)) := by
  show Ideal.div (rowSumCol (mulf a a) (ix2 p (0 : Fin 1))) (Ideal.ofBits .f32 0x45000000#32) = _
  rw [rowSumCol_apply]
  rfl

/-- The reciprocal standard deviation of each row. -/
def invStdCol (a : FVec Ideal S1024x2048 .f32) : FVec Ideal S1024x1 .f32 :=
  rsqrt (addf (subf (meanSqCol a) (mulf (meanCol a) (meanCol a)))
    (broadcast S1024x1 (Scalar.ofBits (F := Ideal) .f32 0x3727C5AC#32)))

theorem invStdCol_apply (a : FVec Ideal S1024x2048 .f32) (p : Fin 1024) :
    invStdCol a (ix2 p (0 : Fin 1)) = invStd (fun o => a (ix2 p o)) := by
  show Ideal.rsqrt (meanSqCol a (ix2 p (0 : Fin 1)) - meanCol a (ix2 p (0 : Fin 1)) * meanCol a (ix2 p (0 : Fin 1))
    + Ideal.ofBits .f32 0x3727C5AC#32) = _
  rw [meanSqCol_apply, meanCol_apply]
  rfl

/-! ## The linear layer of the block -/

/-- The block of x against the transposed weight, plus the bias row. -/
def linBlk (v0 : Vec Ideal S1024x128 .f32) (v2 : Vec Ideal S128x2048 .bf16) (v5 : Vec Ideal S1x2048 .f32) :
    FVec Ideal S1024x2048 .f32 :=
  addf (matmul dot_S1024x128_S128x2048_S1024x2048_1_0_0_1_n_n none
    (truncf .bf16 v0 bitsLt_bf16_f32 : FVec Ideal S1024x128 .bf16)
    (shapeCast S128x2048 v2 shapeCasts_S128x2048_S128x2048 : FVec Ideal S128x2048 .bf16)
    (constant S1024x2048 .f32 0x00000000#32)) (rowOf v5)

theorem lhs_row (i : S1024x2048.Idx) (k : dot_S1024x128_S128x2048_S1024x2048_1_0_0_1_n_n.contr.Idx) :
    (dot_S1024x128_S128x2048_S1024x2048_1_0_0_1_n_n.lhsIdx i k 0).val = (i 0).val := by
  unfold DotDims.lhsIdx
  rw [dif_neg (show ¬(0 : Fin S1024x128.rank) ∈ dot_S1024x128_S128x2048_S1024x2048_1_0_0_1_n_n.lhsBatch by decide),
    dif_pos (show (0 : Fin S1024x128.rank) ∈ dot_S1024x128_S128x2048_S1024x2048_1_0_0_1_n_n.lhsNonContracting by decide)]
  rfl

theorem rhs_col (i : S1024x2048.Idx) (k : dot_S1024x128_S128x2048_S1024x2048_1_0_0_1_n_n.contr.Idx) :
    (dot_S1024x128_S128x2048_S1024x2048_1_0_0_1_n_n.rhsIdx i k 1).val = (i 1).val := by
  unfold DotDims.rhsIdx
  rw [dif_neg (show ¬(1 : Fin S128x2048.rank) ∈ dot_S1024x128_S128x2048_S1024x2048_1_0_0_1_n_n.rhsBatch by decide),
    dif_pos (show (1 : Fin S128x2048.rank) ∈ dot_S1024x128_S128x2048_S1024x2048_1_0_0_1_n_n.rhsNonContracting by decide)]
  rfl

/-- Entry (p, q) of the block's linear layer: row p of the x block against column q of the transposed weight. -/
theorem linBlk_apply (v0 : Vec Ideal S1024x128 .f32) (v2 : Vec Ideal S128x2048 .bf16) (v5 : Vec Ideal S1x2048 .f32)
    (p : Fin 1024) (q : Fin 2048) :
    linBlk v0 v2 v5 (ix2 p q) = (∑ k : Fin 128, v0 (ix2 p k) * v2 (ix2 k q)) + v5 (ix2 (0 : Fin 1) q) := by
  unfold linBlk
  rw [addf_apply, rowOf_apply, shapeCast_self]
  refine congrArg (· + v5 (ix2 (0 : Fin 1) q)) ?_
  simp only [matmul]
  rw [Ideal.matmul_constant_zero_apply,
    ← Equiv.sum_comp (ValueIdx.contrEquiv1 dot_S1024x128_S128x2048_S1024x2048_1_0_0_1_n_n 128 rfl rfl).symm]
  refine Finset.sum_congr rfl fun k _ => ?_
  have hk := ValueIdx.contrEquiv1_symm_val dot_S1024x128_S128x2048_S1024x2048_1_0_0_1_n_n 128 rfl rfl k
  have el : dot_S1024x128_S128x2048_S1024x2048_1_0_0_1_n_n.lhsIdx (ix2 p q)
      ((ValueIdx.contrEquiv1 dot_S1024x128_S128x2048_S1024x2048_1_0_0_1_n_n 128 rfl rfl).symm k) = ix2 p k :=
    funext fun a => Fin.ext (by
      match a with
      | ⟨0, _⟩ => exact lhs_row _ _
      | ⟨1, _⟩ => exact (dot_S1024x128_S128x2048_S1024x2048_1_0_0_1_n_n.lhsIdx_val_of_single rfl _ _).trans hk)
  have er : dot_S1024x128_S128x2048_S1024x2048_1_0_0_1_n_n.rhsIdx (ix2 p q)
      ((ValueIdx.contrEquiv1 dot_S1024x128_S128x2048_S1024x2048_1_0_0_1_n_n 128 rfl rfl).symm k) = ix2 k q :=
    funext fun a => Fin.ext (by
      match a with
      | ⟨0, _⟩ => exact (dot_S1024x128_S128x2048_S1024x2048_1_0_0_1_n_n.rhsIdx_val_of_single rfl _ _).trans hk
      | ⟨1, _⟩ => exact rhs_col _ _)
  rw [el, er]
  rfl

/-! ## The body's result -/

/-- The body's result is these stages composed: the linear layer, the scale (reciprocal deviation times norm weight),
    the shift (norm bias minus mean times scale), then the sum with y times y. -/
theorem pay_eq (v0 : Vec Ideal S1024x128 .f32) (v2 : Vec Ideal S128x2048 .bf16) (v5 v23 v28 : Vec Ideal S1x2048 .f32)
    (v36 : Vec Ideal S1024x2048 .f32) :
    k0_pay1 (F := Ideal) v0 v2 v5 v23 v28 v36
      = mulf (addf (addf (mulf (linBlk v0 v2 v5) (mulf (colOf (invStdCol (linBlk v0 v2 v5))) (rowOf v23)))
          (subf (rowOf v28) (mulf (colOf (meanCol (linBlk v0 v2 v5)))
            (mulf (colOf (invStdCol (linBlk v0 v2 v5))) (rowOf v23))))) v36) v36 := rfl

/-- Entry (p, q) of the body's result: the folded spelling on row p of the block's linear layer. -/
theorem pay_apply (v0 : Vec Ideal S1024x128 .f32) (v2 : Vec Ideal S128x2048 .bf16) (v5 v23 v28 : Vec Ideal S1x2048 .f32)
    (v36 : Vec Ideal S1024x2048 .f32) (p : Fin 1024) (q : Fin 2048) :
    k0_pay1 (F := Ideal) v0 v2 v5 v23 v28 v36 (ix2 p q)
      = folded (fun o => (∑ k : Fin 128, v0 (ix2 p k) * v2 (ix2 k o)) + v5 (ix2 (0 : Fin 1) o))
          (fun o => v23 (ix2 (0 : Fin 1) o)) (fun o => v28 (ix2 (0 : Fin 1) o)) (fun o => v36 (ix2 p o)) q := by
  rw [pay_eq]
  simp only [mulf_apply, addf_apply, subf_apply, colOf_apply, rowOf_apply, invStdCol_apply, meanCol_apply,
    linBlk_apply]
  rfl

/-- A step whose x and y blocks hold the rows `row p` of the arrays, whose weight block holds the weight transposed and
    whose three 1 x 2048 rows hold the bias and the norm vectors, computes the rows `row p` of the folded result. -/
theorem step_eq (x : (⟨2, ![32768, 128]⟩ : Shape).Idx → EReal) (y : (⟨2, ![32768, 2048]⟩ : Shape).Idx → EReal)
    (w : (⟨2, ![2048, 128]⟩ : Shape).Idx → EReal) (bias nw nb : (⟨1, ![2048]⟩ : Shape).Idx → EReal)
    (v0 : Vec Ideal S1024x128 .f32) (v1 : Vec Ideal S1024x2048 .f32) (v2 : Vec Ideal S128x2048 .bf16)
    (v3 v4 v5 : Vec Ideal S1x2048 .f32) (row : Fin 1024 → Fin 32768)
    (h0 : ∀ (p : Fin 1024) (k : Fin 128), v0 (ix2 p k) = x (ix2 (row p) k))
    (h1 : ∀ (p : Fin 1024) (q : Fin 2048), v1 (ix2 p q) = y (ix2 (row p) q))
    (h2 : ∀ (k : Fin 128) (q : Fin 2048), v2 (ix2 k q) = w (ix2 q k))
    (h3 : ∀ q : Fin 2048, v3 (ix2 (0 : Fin 1) q) = bias (ix1 q))
    (h4 : ∀ q : Fin 2048, v4 (ix2 (0 : Fin 1) q) = nw (ix1 q))
    (h5 : ∀ q : Fin 2048, v5 (ix2 (0 : Fin 1) q) = nb (ix1 q))
    (p : Fin 1024) (q : Fin 2048) :
    k0_pay1 (F := Ideal) v0 v2 v3 v4 v5 v1 (ix2 p q) = outFolded x y w bias nw nb (ix2 (row p) q) := by
  rw [pay_apply]
  simp only [h0, h1, h2, h3, h4, h5]
  rfl

end Cert.KernelIdeal.Block

end
-- ==== Proof.KernelValue.lean ====
/-
  From the steps to the whole array.

  The grid has 32 steps; step t works on rows 1024 t .. 1024 t + 1023.  Its x and y blocks are those rows of the
  arguments; its weight block is the whole array the program prepared before the loop -- the weight transposed (the
  change of float format is the identity on extended reals) -- and its three 1 x 2048 rows are the bias and the two
  norm vectors reshaped.  So by the per-step lemma each step writes back rows 1024 t .. 1024 t + 1023 of the folded
  result, a block of one whole-array function.  Every row r lies in the block of step r / 1024, so the blocks cover
  the array and it ends holding the folded result of the six arguments.
-/
import proofs.«115211_j32607391711573_2_alg».proof.Proof.Gen.KernelIdeal.Value
import proofs.«115211_j32607391711573_2_alg».proof.Proof.BlockValue
import Idealize.ShloMosaic.Lib.StableHlo.Run
import Idealize.ShloMosaic.Lib.ValueLayout
import Idealize.ShloMosaic.Lib.Pipeline.Value

noncomputable section

namespace Cert.KernelIdeal.Whole

open Cert.KernelIdeal Cert.KernelIdeal.Gen Idealize.ShloMosaic Idealize.ShloMosaic.TcCoe Idealize.SL.Sem
  Idealize.ShloMosaic.ValueIdx Cert.RowNorm
open Idealize.ShloMosaic.Pipeline (Dat)
open Idealize.ShloMosaic.StableHlo

variable (m : (ℓ : Loc nD τ sig) → Buf (Elt Ideal) ℓ) (ρ : Dev nD → PrngReg)

/-- The folded result of the six argument arrays as launched. -/
abbrev result (c : Dev nD) : S32768x2048.Idx → EReal :=
  outFolded (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-! ## What the region finds in the arrays prepared before it -/

/-- The weight window's array is the weight transposed. -/
theorem weightT (c : Dev nD) (k : Fin 128) (q : Fin 2048) :
    V m c main_v1 (ix2 k q) = m ((c : Thread nD τ).loc main_arg2) (ix2 q k) := by
  have e : (V m c main_v1 : S128x2048.Idx → EReal)
      = truncf .bf16 (transpose S128x2048 [1, 0] (m ((c : Thread nD τ).loc main_arg2))
          transposes_S2048x128_S128x2048_1_0 : FVec Ideal S128x2048 .f32) bitsLt_bf16_f32 := by
    dsimp only [Gen.V, Gen.hostOps0]; after_results
  rw [e, truncf_apply]
  exact transpose_ix2_apply _ transposes_S2048x128_S128x2048_1_0 k q

/-- The bias window's array is the bias as one row. -/
theorem biasRow (c : Dev nD) (q : Fin 2048) :
    V m c main_v2 (ix2 (0 : Fin 1) q) = m ((c : Thread nD τ).loc main_arg3) (ix1 q) := by
  have e : (V m c main_v2 : S1x2048.Idx → EReal)
      = shapeCast S1x2048 (m ((c : Thread nD τ).loc main_arg3)) shapeCasts_S2048_S1x2048 := by
    dsimp only [Gen.V, Gen.hostOps0]; after_results; rfl
  rw [e]
  exact shapeCast_a_1a_apply _ shapeCasts_S2048_S1x2048 (0 : Fin 1) q

/-- The norm weight window's array is the norm weight as one row. -/
theorem normWRow (c : Dev nD) (q : Fin 2048) :
    V m c main_v3 (ix2 (0 : Fin 1) q) = m ((c : Thread nD τ).loc main_arg4) (ix1 q) := by
  have e : (V m c main_v3 : S1x2048.Idx → EReal)
      = shapeCast S1x2048 (m ((c : Thread nD τ).loc main_arg4)) shapeCasts_S2048_S1x2048 := by
    dsimp only [Gen.V, Gen.hostOps0]; after_results; rfl
  rw [e]
  exact shapeCast_a_1a_apply _ shapeCasts_S2048_S1x2048 (0 : Fin 1) q

/-- The norm bias window's array is the norm bias as one row. -/
theorem normBRow (c : Dev nD) (q : Fin 2048) :
    V m c main_v4 (ix2 (0 : Fin 1) q) = m ((c : Thread nD τ).loc main_arg5) (ix1 q) := by
  have e : (V m c main_v4 : S1x2048.Idx → EReal)
      = shapeCast S1x2048 (m ((c : Thread nD τ).loc main_arg5)) shapeCasts_S2048_S1x2048 := by
    dsimp only [Gen.V, Gen.hostOps0]; after_results; rfl
  rw [e]
  exact shapeCast_a_1a_apply _ shapeCasts_S2048_S1x2048 (0 : Fin 1) q

/-! ## Where each window's block sits at step t -/

theorem zeros : (![0, 0] : Fin 2 → Nat) = fun _ => 0 := funext fun a => by fin_cases a <;> rfl

/-- The printed index maps over the 32 steps: the x, y and output windows move one block of rows per step and stay
    at column block 0; the weight, bias and norm windows stay at block (0, 0). -/
theorem blockIndices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of step t's blocks is row 1024 t + p of the arrays. -/
def rowAt (t : Fin cfg0.N) (p : Fin 1024) : Fin 32768 :=
  ⟨t.val * 1024 + p.val, by have ht : t.val < 32 := lt_of_lt_of_eq t.isLt N_0; have := p.isLt; omega⟩

/-! ## What step t writes back -/

/-- Step t writes back block t of the folded result. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zeros]
  simp only [View.ld_unit_zero (S := S1024x128) zeros, View.ld_unit_zero (S := S1024x2048) zeros,
    View.ld_unit_zero (S := S128x2048) zeros, View.ld_unit_zero (S := S1x2048) zeros]
  obtain ⟨a00, a01, a10, a11, a20, a21, a30, a31, a40, a41, a50, a51, a60, a61⟩ := blockIndices t
  funext (j : S1024x2048.Idx)
  obtain ⟨p, q, rfl⟩ : ∃ (p : Fin 1024) (q : Fin 2048), j = ix2 p q := ⟨j 0, j 1, eq_ix2 j⟩
  show k0_pay1 (F := Ideal) (iblk m c 0 t) (iblk m c 2 t) (iblk m c 3 t) (iblk m c 4 t) (iblk m c 5 t) (iblk m c 1 t)
      (ix2 p q) = result m c (((cfg0.win 6).blk t).view.emb (ix2 p q))
  have hout : ((cfg0.win 6).blk t).view.emb (ix2 p q) = ix2 (rowAt t p) q := by
    funext a; apply Fin.ext
    match a with
    | ⟨0, _⟩ => show win0_6.index t (0 : Fin 2) * 1024 + 1 * p.val = t.val * 1024 + p.val; omega
    | ⟨1, _⟩ => show win0_6.index t (1 : Fin 2) * 2048 + 1 * q.val = q.val; omega
  rw [hout]
  refine Block.step_eq (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (iblk m c 0 t) (iblk m c 1 t) (iblk m c 2 t) (iblk m c 3 t) (iblk m c 4 t) (iblk m c 5 t) (rowAt t)
    ?_ ?_ ?_ ?_ ?_ ?_ p q
  · intro p' k
    show V m c main_arg0 (((cfg0.win 0).blk t).view.emb (ix2 p' k)) = _
    rw [V_main_arg0]
    refine congrArg _ (funext fun a => Fin.ext ?_)
    match a with
    | ⟨0, _⟩ => show win0_0.index t (0 : Fin 2) * 1024 + 1 * p'.val = t.val * 1024 + p'.val; omega
    | ⟨1, _⟩ => show win0_0.index t (1 : Fin 2) * 128 + 1 * k.val = k.val; omega
  · intro p' q'
    show V m c main_arg1 (((cfg0.win 1).blk t).view.emb (ix2 p' q')) = _
    rw [V_main_arg1]
    refine congrArg _ (funext fun a => Fin.ext ?_)
    match a with
    | ⟨0, _⟩ => show win0_1.index t (0 : Fin 2) * 1024 + 1 * p'.val = t.val * 1024 + p'.val; omega
    | ⟨1, _⟩ => show win0_1.index t (1 : Fin 2) * 2048 + 1 * q'.val = q'.val; omega
  · intro k q'
    show V m c main_v1 (((cfg0.win 2).blk t).view.emb (ix2 k q')) = _
    have he : ((cfg0.win 2).blk t).view.emb (ix2 k q') = ix2 k q' := by
      funext a; apply Fin.ext
      match a with
      | ⟨0, _⟩ => show win0_2.index t (0 : Fin 2) * 128 + 1 * k.val = k.val; omega
      | ⟨1, _⟩ => show win0_2.index t (1 : Fin 2) * 2048 + 1 * q'.val = q'.val; omega
    rw [he]
    exact weightT m c k q'
  · intro q'
    show V m c main_v2 (((cfg0.win 3).blk t).view.emb (ix2 (0 : Fin 1) q')) = _
    have he : ((cfg0.win 3).blk t).view.emb (ix2 (0 : Fin 1) q') = ix2 (0 : Fin 1) q' := by
      funext a; apply Fin.ext
      match a with
      | ⟨0, _⟩ => show win0_3.index t (0 : Fin 2) * 1 + 1 * 0 = 0; omega
      | ⟨1, _⟩ => show win0_3.index t (1 : Fin 2) * 2048 + 1 * q'.val = q'.val; omega
    rw [he]
    exact biasRow m c q'
  · intro q'
    show V m c main_v3 (((cfg0.win 4).blk t).view.emb (ix2 (0 : Fin 1) q')) = _
    have he : ((cfg0.win 4).blk t).view.emb (ix2 (0 : Fin 1) q') = ix2 (0 : Fin 1) q' := by
      funext a; apply Fin.ext
      match a with
      | ⟨0, _⟩ => show win0_4.index t (0 : Fin 2) * 1 + 1 * 0 = 0; omega
      | ⟨1, _⟩ => show win0_4.index t (1 : Fin 2) * 2048 + 1 * q'.val = q'.val; omega
    rw [he]
    exact normWRow m c q'
  · intro q'
    show V m c main_v4 (((cfg0.win 5).blk t).view.emb (ix2 (0 : Fin 1) q')) = _
    have he : ((cfg0.win 5).blk t).view.emb (ix2 (0 : Fin 1) q') = ix2 (0 : Fin 1) q' := by
      funext a; apply Fin.ext
      match a with
      | ⟨0, _⟩ => show win0_5.index t (0 : Fin 2) * 1 + 1 * 0 = 0; omega
      | ⟨1, _⟩ => show win0_5.index t (1 : Fin 2) * 2048 + 1 * q'.val = q'.val; omega
    rw [he]
    exact normBRow m c q'

/-! ## The blocks cover the array -/

/-- An index is in step t's block iff each coordinate is in the block's range on its axis. -/
theorem mem_blk (t : Fin cfg0.N) (i : S32768x2048.Idx) :
    i ∈ ((cfg0.win 6).blk t).view.set ↔ ∀ a : Fin 2, win0_6.index t a * S1024x2048.size a ≤ (i a).val
      ∧ (i a).val < win0_6.index t a * S1024x2048.size a + S1024x2048.size a := by
  show i ∈ ((View.whole main_v5).slice (win0_6.rect t)).set ↔ _
  rw [View.set_slice_whole, Rect.mem_set_unit]
  exact Iff.rfl

/-- Row r is in the block of step r / 1024. -/
theorem cover (i : S32768x2048.Idx) :
    ∃ t : Fin cfg0.N, (cfg0.win 6).flush t = true ∧ i ∈ ((cfg0.win 6).blk t).view.set := by
  have hi0 : (i 0).val < 32768 := (i 0).isLt
  have hi1 : (i 1).val < 2048 := (i 1).isLt
  let t : Fin cfg0.N := ⟨(i 0).val / 1024, by rw [show cfg0.N = 32 from N_0]; omega⟩
  obtain ⟨-, -, -, -, -, -, -, -, -, -, -, -, a60, a61⟩ := blockIndices t
  have ht : t.val = (i 0).val / 1024 := rfl
  refine ⟨t, flush0_6 t, ?_⟩
  rw [mem_blk]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 2048 ≤ (i 1).val ∧ (i 1).val < win0_6.index t (1 : Fin 2) * 2048 + 2048
    omega

/-- After the run the result array holds the folded result of the six arguments. -/
theorem final (c : Dev nD) : (dats m 0 c).arrAt 6 cfg0.N = result m c :=
  (dats m 0 c).arrAt_eq_of_cover 6 (result m c) (fun t _ => flushed_eq m c t) cover

/-- The run, read: the result array at the folded result of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
/-
  The reference computes the plain spelling.

  Read one operation at a time, the reference's last stage at (b, o) is
      ((lin b o - mean) * s * nw[o] + nb[o] + y[b,o]) * y[b,o]
  where lin b is row b of the linear layer (the contraction of x[b,:] with w[o,:] plus bias[o]), mean is the sum of
  that row over the literal 2048 (the host's sum starts from the zero word, which adds nothing), and s is the
  reciprocal square root of (mean of squares - mean * mean + eps).  The row's mean and s are computed as 32768 x 1
  columns and broadcast back along the row; the three 2048-vectors are broadcast down the rows.
-/
import proofs.«115211_j32607391711573_2_alg».proof.Proof.Gen.ReferenceIdeal.Read
import proofs.«115211_j32607391711573_2_alg».proof.Proof.NormSpec
import Idealize.ShloMosaic.PureOps.Ideal.Laws

noncomputable section

namespace Cert.ReferenceIdeal.RefValue

open Cert.ReferenceIdeal Cert.ReferenceIdeal.Gen Cert.ReferenceIdeal.Read Idealize.ShloMosaic
  Idealize.ShloMosaic.ValueIdx Cert.RowNorm
open scoped BigOperators

/-- The linear layer at (b, o): x[b,:] against w[o,:], plus bias[o]. -/
theorem lin_apply (x0 : FVec Ideal S32768x128 .f32) (x2 : FVec Ideal S2048x128 .f32) (x3 : FVec Ideal S2048 .f32)
    (b : Fin 32768) (o : Fin 2048) : val_main_v3 (F := Ideal) x0 x2 x3 (ix2 b o) = linRow x0 x2 x3 b o := by
  have el : ∀ k : Fin 128, lidx_main_v0 (ix2 b o) k = ix2 b k := fun k =>
    funext fun a => Fin.ext (by match a with | ⟨0, _⟩ => rfl | ⟨1, _⟩ => rfl)
  have er : ∀ k : Fin 128, ridx_main_v0 (ix2 b o) k = ix2 o k := fun k =>
    funext fun a => Fin.ext (by match a with | ⟨0, _⟩ => rfl | ⟨1, _⟩ => rfl)
  have eb : idx_main_v1 (idx_main_v2 (ix2 b o)) = ix1 o :=
    funext fun a => Fin.ext (by match a with | ⟨0, _⟩ => rfl)
  rw [val_main_v3_apply, val_main_v0_apply, val_main_v2_apply, val_main_v1_apply, eb]
  simp only [el, er]
  rfl

/-- The row mean, kept as a column: row b of the linear layer summed, over the literal 2048. -/
theorem mean_apply (x0 : FVec Ideal S32768x128 .f32) (x2 : FVec Ideal S2048x128 .f32) (x3 : FVec Ideal S2048 .f32)
    (b : Fin 32768) : val_main_v7 (F := Ideal) x0 x2 x3 (ix2 b (0 : Fin 1)) = mean (linRow x0 x2 x3 b) := by
  have e : ∀ k : Fin 2048, idx_main_v4 (idx_main_v5 (ix2 b (0 : Fin 1))) k = ix2 b k := fun k =>
    funext fun a => Fin.ext (by match a with | ⟨0, _⟩ => rfl | ⟨1, _⟩ => rfl)
  rw [val_main_v7_apply, val_main_v5_apply, val_main_v4_apply, val_main_v6_apply, val_main_cst_0_apply,
    val_main_cst_apply]
  simp only [e, lin_apply, Ideal.ofBits_def, Ideal.ofBits_zero_f32, zero_add]
  rfl

/-- The mean of the row's squares, kept as a column. -/
theorem meanSq_apply (x0 : FVec Ideal S32768x128 .f32) (x2 : FVec Ideal S2048x128 .f32) (x3 : FVec Ideal S2048 .f32)
    (b : Fin 32768) : val_main_v12 (F := Ideal) x0 x2 x3 (ix2 b (0 : Fin 1)) = meanSq (linRow x0 x2 x3 b) := by
  have e : ∀ k : Fin 2048, idx_main_v9 (idx_main_v10 (ix2 b (0 : Fin 1))) k = ix2 b k := fun k =>
    funext fun a => Fin.ext (by match a with | ⟨0, _⟩ => rfl | ⟨1, _⟩ => rfl)
  rw [val_main_v12_apply, val_main_v10_apply, val_main_v9_apply, val_main_v11_apply, val_main_cst_2_apply,
    val_main_cst_1_apply]
  simp only [e, val_main_v8_apply, lin_apply, Ideal.ofBits_def, Ideal.ofBits_zero_f32, zero_add]
  rfl

/-- The reciprocal standard deviation of the row, kept as a column. -/
theorem invStd_apply (x0 : FVec Ideal S32768x128 .f32) (x2 : FVec Ideal S2048x128 .f32) (x3 : FVec Ideal S2048 .f32)
    (b : Fin 32768) : val_main_v17 (F := Ideal) x0 x2 x3 (ix2 b (0 : Fin 1)) = invStd (linRow x0 x2 x3 b) := by
  rw [val_main_v17_apply, val_main_v16_apply, val_main_v14_apply, val_main_v13_apply, val_main_v15_apply,
    val_main_cst_3_apply, meanSq_apply, mean_apply]
  rfl

/-- The reference's result is the plain spelling of the six arguments. -/
theorem result_eq (x0 : FVec Ideal S32768x128 .f32) (x1 : FVec Ideal S32768x2048 .f32) (x2 : FVec Ideal S2048x128 .f32)
    (x3 x4 x5 : FVec Ideal S2048 .f32) :
    val_main_v29 (F := Ideal) x0 x1 x2 x3 x4 x5 = outPlain x0 x1 x2 x3 x4 x5 := by
  funext i
  obtain ⟨b, o, rfl⟩ : ∃ (b : Fin 32768) (o : Fin 2048), i = ix2 b o := ⟨i 0, i 1, eq_ix2 i⟩
  have e18 : idx_main_v18 (ix2 b o) = ix2 b (0 : Fin 1) :=
    funext fun a => Fin.ext (by match a with | ⟨0, _⟩ => rfl | ⟨1, _⟩ => rfl)
  have e20 : idx_main_v20 (ix2 b o) = ix2 b (0 : Fin 1) :=
    funext fun a => Fin.ext (by match a with | ⟨0, _⟩ => rfl | ⟨1, _⟩ => rfl)
  have e23 : idx_main_v22 (idx_main_v23 (ix2 b o)) = ix1 o :=
    funext fun a => Fin.ext (by match a with | ⟨0, _⟩ => rfl)
  have e26 : idx_main_v25 (idx_main_v26 (ix2 b o)) = ix1 o :=
    funext fun a => Fin.ext (by match a with | ⟨0, _⟩ => rfl)
  rw [val_main_v29_apply, val_main_v28_apply, val_main_v27_apply, val_main_v24_apply, val_main_v21_apply,
    val_main_v19_apply, val_main_v18_apply, val_main_v20_apply, val_main_v23_apply, val_main_v22_apply,
    val_main_v26_apply, val_main_v25_apply, e18, e20, e23, e26, lin_apply, mean_apply, invStd_apply]
  rfl

end Cert.ReferenceIdeal.RefValue

end
-- ==== Proof.FiniteInputs.lean ====
/-
  The precondition says every entry of the six arrays is a real number.

  The precondition is the conjunction, over the six arrays, of "for all entries, |a[i]| < +inf".  An extended real
  whose absolute value max(a, -a) lies strictly below +inf is neither +inf nor -inf (at -inf the negation is +inf),
  so it is a real.  The word 0x7F800000 is +inf; a conjunction of truth values is true only if both are; and an
  "all" over an array that is true was true at every entry.
-/
import proofs.«115211_j32607391711573_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Finite

open Cert.Pre_finite_inputs Idealize.ShloMosaic

/-- A shape of rank 0 has one index. -/
instance : Subsingleton S_.Idx := ⟨fun _ _ => funext fun d => d.elim0⟩

/-- The word 0x7F800000 is +inf. -/
theorem word_top : Ideal.ofBits .f32 0x7F800000#32 = (⊤ : EReal) := by
  simp [Ideal.ofBits, Ideal.ieee]

/-- An extended real whose absolute value is strictly below +inf is a real number. -/
theorem real_of_abs_lt (x : EReal) (h : Ideal.cmp .olt (max x (-x)) (Ideal.ofBits .f32 0x7F800000#32) = 1#1) :
    ∃ r : ℝ, x = (r : EReal) := by
  rw [word_top] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => simp at hlt
  | coe r => exact ⟨r, rfl⟩
  | top => simp at hlt

/-- The precondition, true, makes every entry of every argument a real number. -/
theorem real_of_pre [Facts] {a0 : FVec Ideal S32768x128 .f32} {a1 : FVec Ideal S32768x2048 .f32}
    {a2 : FVec Ideal S2048x128 .f32} {a3 a4 a5 : FVec Ideal S2048 .f32}
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have e := congrFun h ValueIdx.ix0
  dsimp only [fn, fn_part1] at e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨fun i => real_of_abs_lt _ (Host.reduce_andi_all _ _ _ _ _ h0 i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i)⟩

end Cert.Pre_finite_inputs.Finite

end
-- ==== Proof.lean ====
/-
  A linear layer, a per-row normalisation with an affine map, and a combination with a second array, computed two ways.

  With  lin[b,o] = (sum over k < 128 of x[b,k] * w[o,k]) + bias[o]  and, for each row b,
      mean = (sum over o of lin[b,o]) / 2048,   var = (sum over o of lin[b,o]^2) / 2048 - mean^2,   s = 1 / sqrt (var + eps),
  the reference computes            ((lin - mean) * s * nw + nb + y) * y,
  and the kernel, 1024 rows a step, (lin * (s * nw) + (nb - mean * (s * nw)) + y) * y
  with the affine map folded into one scale and one shift per entry.  On the extended reals the two are equal when
  every quantity is a real number, since then distributivity holds: the arguments are real by the precondition, the
  sums of products of reals are real, and s is real because the variance of 2048 reals taken with divisor 2048 is not
  negative (Cauchy-Schwarz) and eps is a positive number, so var + eps > 0.

  The pieces: RowNormLaw (the law on one row), NormSpec (the two spellings as whole-array functions), BlockValue
  (what one step computes, entry by entry), KernelValue (the 32 steps' blocks cover the result array), RefValue (the
  reference's operations compose to the plain spelling), FiniteInputs (the precondition makes every entry real).
  The three programs' runs and their unchanged arguments come from the generated modules; the idealization rewrote
  no operation, so the second program is the first one's text read at exact values.
-/
import proofs.«115211_j32607391711573_2_alg».proof.Defs
import proofs.«115211_j32607391711573_2_alg».proof.Proof.Gen.Kernel
import proofs.«115211_j32607391711573_2_alg».proof.Proof.Gen.Kernel.Skeleton
import proofs.«115211_j32607391711573_2_alg».proof.Proof.Gen.Kernel.Launch
import proofs.«115211_j32607391711573_2_alg».proof.Proof.Gen.Kernel.Points
import proofs.«115211_j32607391711573_2_alg».proof.Proof.Gen.Kernel.Frame
import proofs.«115211_j32607391711573_2_alg».proof.Proof.Gen.KernelIdeal
import proofs.«115211_j32607391711573_2_alg».proof.Proof.Gen.KernelIdeal.Skeleton
import proofs.«115211_j32607391711573_2_alg».proof.Proof.Gen.KernelIdeal.Launch
import proofs.«115211_j32607391711573_2_alg».proof.Proof.Gen.KernelIdeal.Points
import proofs.«115211_j32607391711573_2_alg».proof.Proof.Gen.KernelIdeal.Frame
import proofs.«115211_j32607391711573_2_alg».proof.Proof.Gen.ReferenceIdeal
import proofs.«115211_j32607391711573_2_alg».proof.Proof.Gen.Pre_finite_inputs
import proofs.«115211_j32607391711573_2_alg».proof.Proof.Gen.KernelIdeal.Value
import proofs.«115211_j32607391711573_2_alg».proof.Proof.Gen.ReferenceIdeal.Run
import proofs.«115211_j32607391711573_2_alg».proof.Proof.Gen.ReferenceIdeal.Read
import proofs.«115211_j32607391711573_2_alg».proof.Proof.KernelValue
import proofs.«115211_j32607391711573_2_alg».proof.Proof.RefValue
import proofs.«115211_j32607391711573_2_alg».proof.Proof.FiniteInputs
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From arguments that agree and are all real, the kernel ends at the folded spelling and the reference at the
    plain one of the same six arrays: one array. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨f0, f1, f2, f3, f4, f5⟩ := Cert.Pre_finite_inputs.Finite.real_of_pre (hpre c)
  rw [Cert.ReferenceIdeal.Read.val_main_v29_eq, Cert.ReferenceIdeal.RefValue.result_eq, a0, a1, a2, a3, a4, a5]
  exact (Cert.RowNorm.outFolded_eq_outPlain f0 f1 f2 f3 f4 f5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
